-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512x7x7 : Shape := ⟨4, ![2048, 512, 7, 7]⟩
abbrev S_ : Shape := ⟨0, ![]⟩

class Facts : Prop where
  bcast_S_S2048x512x7x7 : S_.BroadcastsInDim S2048x512x7x7 (![] : Fin 0 → Fin S2048x512x7x7.rank)
  reducesTo_S2048x512x7x7_S_d0_1_2_3 : S2048x512x7x7.ReducesTo [0, 1, 2, 3] S_
  h_S_ : 0 < S_.numel

variable [Facts]

def fn {F : FTy → Type} [FloatOps F] (main_arg0 : FVec F S2048x512x7x7 .f32) : IVec S_ 1 :=
  let main_v0 : FVec F S2048x512x7x7 .f32 := Host.absf main_arg0
  let main_cst : FVec F S_ .f32 := constant S_ .f32 0x7F800000#32
  let main_v1 : FVec F S2048x512x7x7 .f32 := broadcastInDim S2048x512x7x7 ![] bcast_S_S2048x512x7x7 main_cst
  let main_v2 : IVec S2048x512x7x7 1 := cmpf .olt main_v0 main_v1
  let main_c : IVec S_ 1 := constantI S_ 1 1#1
  let main_v3 : IVec S_ 1 := (fun x v => Host.reduce IntOp.andi x v reducesTo_S2048x512x7x7_S_d0_1_2_3 h_S_) main_v2 main_c
  main_v3
-- ==== Kernel.lean ====
abbrev S2048x512x7x7 : Shape := ⟨4, ![2048, 512, 7, 7]⟩
abbrev S2048x512x49 : Shape := ⟨3, ![2048, 512, 49]⟩
abbrev S32x512x49 : Shape := ⟨3, ![32, 512, 49]⟩
abbrev S32x512 : Shape := ⟨2, ![32, 512]⟩
abbrev S32 : Shape := ⟨1, ![32]⟩
abbrev S32x1 : Shape := ⟨2, ![32, 1]⟩
abbrev S32x512x1 : Shape := ⟨3, ![32, 512, 1]⟩

abbrev nBuf : Space → Nat
  | .hbm => 4
  | .vmem => 4
  | .smem => 0
  | _ => 0

abbrev bufTy : (tb : Table) → Fin (tcTables nBuf tb) → BufTy
  | .hbm, ⟨0, _⟩ => ⟨S2048x512x7x7, .f32⟩
  | .hbm, ⟨1, _⟩ => ⟨S2048x512x49, .f32⟩
  | .hbm, ⟨2, _⟩ => ⟨S2048x512x49, .f32⟩
  | .hbm, ⟨3, _⟩ => ⟨S2048x512x7x7, .f32⟩
  | .local _ .vmem, ⟨0, _⟩ => ⟨S32x512x49, .f32⟩
  | .local _ .vmem, ⟨1, _⟩ => ⟨S32x512x49, .f32⟩
  | .local _ .vmem, ⟨2, _⟩ => ⟨S32x512x49, .f32⟩
  | .local _ .vmem, ⟨3, _⟩ => ⟨S32x512x49, .f32⟩
  | _, _ => ⟨S2048x512x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512x49 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S2048x512x7x7_S2048x512x49 : S2048x512x7x7.ShapeCasts S2048x512x49
  inb_S32x512x49_S32x512x49_0_0_0 : ∀ a, (![0, 0, 0] : Fin 3 → Nat) a + S32x512x49.size a ≤ S32x512x49.size a
  h_S32x512x49 : 0 < S32x512x49.numel
  shapeCasts_S32x512x49_S32x512x49 : S32x512x49.ShapeCasts S32x512x49
  reduces_S32x512x49_S32x512 : S32x512x49.Reduces [2] S32x512
  reduces_S32x512_S32 : S32x512.Reduces [1] S32
  shapeCasts_S32_S32x1 : S32.ShapeCasts S32x1
  broadcasts_S32x1_S32x512 : S32x1.Broadcasts S32x512
  shapeCasts_S32x512_S32x512x1 : S32x512.ShapeCasts S32x512x1
  broadcasts_S32x512x1_S32x512x49 : S32x512x1.Broadcasts S32x512x49
  shapeCasts_S2048x512x49_S2048x512x7x7 : S2048x512x49.ShapeCasts S2048x512x7x7
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x49.size a ≤ S2048x512x49.size a
  hwx0_0 : ∀ i : grid0.Coords, EltTy.bits .f32 = 32 ∨ (Rect.block (s := S2048x512x49) S32x512x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512x49.size a ≤ S2048x512x49.size a
  hwx0_1 : ∀ i : grid0.Coords, EltTy.bits .f32 = 32 ∨ (Rect.block (s := S2048x512x49) S32x512x49.size (cc0_transform_1 i) (hinb0_1 i)).WholeWords (EltTy.packing .f32)

variable [Facts₀]

abbrev win0_0 : Pipeline.Window sig grid0 :=
  Pipeline.Window.ofSpec (Memref.whole main_v0) S32x512x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x512x49.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512x7x7 : Shape := ⟨4, ![2048, 512, 7, 7]⟩
abbrev S_ : Shape := ⟨0, ![]⟩
abbrev S2048x512 : Shape := ⟨2, ![2048, 512]⟩
abbrev S2048 : Shape := ⟨1, ![2048]⟩
abbrev S2048x1 : Shape := ⟨2, ![2048, 1]⟩
abbrev S2048x512x1x1 : Shape := ⟨4, ![2048, 512, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x512x7x7, .f32⟩
  | .hbm, ⟨1, _⟩ => ⟨S_, .f32⟩
  | .hbm, ⟨2, _⟩ => ⟨S2048x512, .f32⟩
  | .hbm, ⟨3, _⟩ => ⟨S_, .f32⟩
  | .hbm, ⟨4, _⟩ => ⟨S2048x512, .f32⟩
  | .hbm, ⟨5, _⟩ => ⟨S2048x512, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x512, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512x1x1, .f32⟩
  | .hbm, ⟨38, _⟩ => ⟨S2048x512x7x7, .f32⟩
  | .hbm, ⟨39, _⟩ => ⟨S2048x512x7x7, .f32⟩
  | _, _ => ⟨S2048x512x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_5 : Ref sig .tc := ⟨.hbm, 21, rfl⟩
abbrev main_v14 : Ref sig .tc := ⟨.hbm, 22, rfl⟩
abbrev main_v15 : Ref sig .tc := ⟨.hbm, 23, rfl⟩
abbrev main_cst_6 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_7 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  reducesTo_S2048x512x7x7_S2048x512_d2_3 : S2048x512x7x7.ReducesTo [2, 3] S2048x512
  h_S_ : 0 < S_.numel
  bcast_S_S2048x512 : S_.BroadcastsInDim S2048x512 (![] : Fin 0 → Fin S2048x512.rank)
  reducesTo_S2048x512_S2048_d1 : S2048x512.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  bcast_S2048x512_S2048x512x1x1_0_1 : S2048x512.BroadcastsInDim S2048x512x1x1 (![0, 1] : Fin 2 → Fin S2048x512x1x1.rank)
  bcast_S2048x512x1x1_S2048x512x7x7_0_1_2_3 : S2048x512x1x1.BroadcastsInDim S2048x512x7x7 (![0, 1, 2, 3] : Fin 4 → Fin S2048x512x7x7.rank)

variable [Facts₀]

class Facts : Prop extends Facts₀ where

variable [Facts]
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.Gate.lean ====
/-
  The mathematics of the claim, with no program in sight.

  For one sample (a 512 × 49 table of extended reals: 512 channels, 49 spatial positions) the result is the
  table itself with each channel's row multiplied by a GATE that depends on all the sample's values:

    y c   = (Σ_k r c k) / 49                         the channel's spatial mean
    μ     = (Σ_c y c) / 512                          the mean of the channel means
    q     = (Σ_c y c · y c) / 512                    their mean square
    s     = rsqrt (max (q − μ·μ) 0 + ε)              the reciprocal deviation
    z c   = (y c − μ) · s                            the normalised channel mean
    g c   = exp ((−1 · z c) · z c)                   the gate
    out c k = r c k · g c

  Every operation is the extended reals' own (`Ideal.div`, `Ideal.rsqrt`, `Ideal.exp`, +, −, ·, max), and the five constants
  are the f32 words the two programs share, read as the reals they denote; nothing here evaluates them.
  The arrays: `gated3` is the formula on a [2048, 512, 49] array (sample n is the slab n), `gated4` on a
  [2048, 512, 7, 7] array whose 49 positions are the row-major pairs (k / 7, k % 7) (`hi7`, `lo7`).
-/
import proofs.«104567_j25056839205377_2_alg».proof.Proof.LibKeepdims

noncomputable section

open scoped BigOperators

namespace Cert.ChannelGate

open Idealize.ShloMosaic Idealize.ShloMosaic.ValueIdx Idealize.ShloMosaic.Keepdims

/-- 49.0, 512.0, 0.0, the f32 nearest 1e-5, and −1.0, as the extended reals their words denote. -/
abbrev c49 : EReal := Ideal.ofBits .f32 0x42440000#32
abbrev c512 : EReal := Ideal.ofBits .f32 0x44000000#32
abbrev cZero : EReal := Ideal.ofBits .f32 0x00000000#32
abbrev cEps : EReal := Ideal.ofBits .f32 0x3727C5AC#32
abbrev cNeg1 : EReal := Ideal.ofBits .f32 0xBF800000#32

/-- The mean of a sample's 512 channel means. -/
def centre (y : Fin 512 → EReal) : EReal := Ideal.div (∑ c, y c) c512
/-- Their mean square. -/
def meanSq (y : Fin 512 → EReal) : EReal := Ideal.div (∑ c, y c * y c) c512
/-- The reciprocal deviation: rsqrt of the (clamped) variance plus ε. -/
def invDev (y : Fin 512 → EReal) : EReal := Ideal.rsqrt (max (meanSq y - centre y * centre y) cZero + cEps)
/-- The gate of channel `c`: exp of minus the square of the normalised channel mean, the square spelt (−1·z)·z. -/
def gate (y : Fin 512 → EReal) (c : Fin 512) : EReal :=
  Ideal.exp (cNeg1 * ((y c - centre y) * invDev y) * ((y c - centre y) * invDev y))
/-- A channel's spatial mean over the 49 positions. -/
def chanMean (r : Fin 512 → Fin 49 → EReal) (c : Fin 512) : EReal := Ideal.div (∑ k, r c k) c49

/-- The formula on a [2048, 512, 49] array. -/
def gated3 (A : (⟨3, ![2048, 512, 49]⟩ : Shape).Idx → EReal) : (⟨3, ![2048, 512, 49]⟩ : Shape).Idx → EReal := fun j =>
  A j * gate (chanMean fun c' k' => A (ix3 (j 0) c' k')) (j 1)

/-- The formula on a [2048, 512, 7, 7] array. -/
def gated4 (X : (⟨4, ![2048, 512, 7, 7]⟩ : Shape).Idx → EReal) : (⟨4, ![2048, 512, 7, 7]⟩ : Shape).Idx → EReal := fun i =>
  X i * gate (chanMean fun c' k' => X (ix4 (i 0) c' (hi7 k') (lo7 k'))) (i 1)

/-- FLATTENING COMMUTES WITH THE FORMULA: flatten the 7 × 7 window to 49 positions, apply the formula, and unflatten — the
    result is the formula on the 4-axis array. Position 7p + q of the flattened array is entry (p, q), and the sum over a
    sample's channel row ranges over the same 49 values either way. -/
theorem gated4_eq_reshape (X : (⟨4, ![2048, 512, 7, 7]⟩ : Shape).Idx → EReal)
    (h1 : (⟨4, ![2048, 512, 7, 7]⟩ : Shape).ShapeCasts ⟨3, ![2048, 512, 49]⟩)
    (h2 : (⟨3, ![2048, 512, 49]⟩ : Shape).ShapeCasts ⟨4, ![2048, 512, 7, 7]⟩) :
    shapeCast ⟨4, ![2048, 512, 7, 7]⟩ (gated3 (shapeCast ⟨3, ![2048, 512, 49]⟩ X h1)) h2 = gated4 X := by
  funext i
  obtain ⟨n, c, p, q, rfl⟩ : ∃ (n : Fin 2048) (c : Fin 512) (p q : Fin 7), i = ix4 n c p q := ⟨i 0, i 1, i 2, i 3, eq_ix4 i⟩
  rw [unflatten77_apply]
  show shapeCast ⟨3, ![2048, 512, 49]⟩ X h1 (ix3 n c (lane7 p q))
      * gate (chanMean fun c' k' => shapeCast ⟨3, ![2048, 512, 49]⟩ X h1 (ix3 n c' k')) c
    = X (ix4 n c p q) * gate (chanMean fun c' k' => X (ix4 n c' (hi7 k') (lo7 k'))) c
  rw [flatten77_apply]
  have hp : hi7 (lane7 p q) = p := Fin.ext (by show (7 * p.val + q.val) / 7 = p.val; have := q.isLt; omega)
  have hq : lo7 (lane7 p q) = q := Fin.ext (by show (7 * p.val + q.val) % 7 = q.val; have := q.isLt; omega)
  rw [hp, hq]
  exact congrArg (fun r => X (ix4 n c p q) * gate (chanMean r) c)
    (funext fun c' => funext fun k' => flatten77_apply X h1 n c' k')

end Cert.ChannelGate

end
-- ==== Proof.Body.lean ====
/-
  What the kernel's body stores, read at one element.

  The body loads a [32, 512, 49] block (32 samples), and stores the block with every channel row multiplied by that
  sample's gate. Its arithmetic, in the order it is computed: the channel means (a lane sum over the 49 positions
  divided by 49), two per-sample averages over the 512 channels kept as [32, 1] columns (of the means and of their
  squares), the reciprocal deviation column, the normalised means, the gate, and the product with the block. Each
  stage below is the body's own term; `pay_eq` says the payload is their composition, and the `_apply` lemmas read
  each stage at an index: sample `b` of the block only ever sees sample `b`'s values, and what it computes is
  `ChannelGate.gate` of that sample's channel means.
-/
import proofs.«104567_j25056839205377_2_alg».proof.Proof.Gen.KernelIdeal.Skeleton
import proofs.«104567_j25056839205377_2_alg».proof.Proof.Gate
import proofs.«104567_j25056839205377_2_alg».proof.Proof.LibKeepdims

noncomputable section

open scoped BigOperators

namespace Cert.KernelIdeal.Body

open Cert.KernelIdeal Cert.KernelIdeal.Gen Cert.ChannelGate
open Idealize.ShloMosaic Idealize.ShloMosaic.ValueIdx Idealize.ShloMosaic.Keepdims

/-! ## The stages -/

/-- The channel means of a block: the lane sum over the 49 positions, divided by 49. -/
def means (x0 : Vec Ideal S32x512x49 .f32) : FVec Ideal S32x512 .f32 :=
  divf (multiReduction .add [2] S32x512 (shapeCast S32x512x49 x0 shapeCasts_S32x512x49_S32x512x49) 0x00000000#32
      reduces_S32x512x49_S32x512 (.inl rfl) rfl)
    (broadcast S32x512 (Scalar.ofBits .f32 0x42440000#32))

/-- A per-sample average over the 512 channels, kept as a [32, 1] column. -/
def colMean (y : FVec Ideal S32x512 .f32) : FVec Ideal S32x1 .f32 :=
  divf (shapeCast S32x1 (multiReduction .add [1] S32 y 0x00000000#32 reduces_S32x512_S32 (.inl rfl) rfl) shapeCasts_S32_S32x1)
    (broadcast S32x1 (Scalar.ofBits .f32 0x44000000#32))

/-- The reciprocal deviation column: rsqrt (max (mean of squares − square of mean) 0 + ε). -/
def recipDev (y : FVec Ideal S32x512 .f32) : FVec Ideal S32x1 .f32 :=
  rsqrt (addf (maximumf (subf (colMean (mulf y y)) (mulf (colMean y) (colMean y)))
      (broadcast S32x1 (Scalar.ofBits .f32 0x00000000#32)))
    (broadcast S32x1 (Scalar.ofBits .f32 0x3727C5AC#32)))

/-- The normalised channel means: (y − mean) · reciprocal deviation, both columns broadcast along the channels. -/
def normed (y : FVec Ideal S32x512 .f32) : FVec Ideal S32x512 .f32 :=
  mulf (subf y (broadcastTo S32x512 (colMean y) broadcasts_S32x1_S32x512))
    (broadcastTo S32x512 (recipDev y) broadcasts_S32x1_S32x512)

/-- The gate: exp ((−1 · z) · z). -/
def gateVec (y : FVec Ideal S32x512 .f32) : FVec Ideal S32x512 .f32 :=
  exp (mulf (mulf (broadcast S32x512 (Scalar.ofBits .f32 0xBF800000#32)) (normed y)) (normed y))

/-- The payload is the block times its gate, the gate broadcast along the 49 positions. -/
theorem pay_eq (x0 : Vec Ideal S32x512x49 .f32) :
    k0_pay1 (F := Ideal) x0 = mulf (shapeCast S32x512x49 x0 shapeCasts_S32x512x49_S32x512x49)
      (broadcastTo S32x512x49 (shapeCast S32x512x1 (gateVec (means x0)) shapeCasts_S32x512_S32x512x1)
        broadcasts_S32x512x1_S32x512x49) := rfl

/-! ## The stages at an index -/

/-- Channel `c` of sample `b`: the mean of that row's 49 values. -/
theorem means_apply (x0 : Vec Ideal S32x512x49 .f32) (b : Fin 32) (c : Fin 512) :
    means x0 (ix2 b c) = chanMean (fun c' k' => x0 (ix3 b c' k')) c :=
  congrArg (fun s => Ideal.div s c49)
    ((laneSum3_apply (shapeCast S32x512x49 x0 shapeCasts_S32x512x49_S32x512x49) 0x00000000#32 reduces_S32x512x49_S32x512
        (.inl rfl) rfl b c).trans
      (Finset.sum_congr rfl fun k _ => congrFun (shapeCast_self x0 shapeCasts_S32x512x49_S32x512x49) (ix3 b c k)))

/-- Sample `b`'s entry of an average column: the sum over that sample's 512 channels, divided by 512. -/
theorem colMean_apply (y : FVec Ideal S32x512 .f32) (b : Fin 32) (z : Fin 1) :
    colMean y (ix2 b z) = Ideal.div (∑ c : Fin 512, y (ix2 b c)) c512 :=
  congrArg (fun s => Ideal.div s c512)
    ((cast_col_apply _ shapeCasts_S32_S32x1 b z).trans
      (rowSum2_apply y 0x00000000#32 reduces_S32x512_S32 (.inl rfl) rfl b))

theorem recipDev_apply (y : FVec Ideal S32x512 .f32) (b : Fin 32) (z : Fin 1) :
    recipDev y (ix2 b z) = invDev (fun c' => y (ix2 b c')) := by
  show Ideal.rsqrt (max (colMean (mulf y y) (ix2 b z) - colMean y (ix2 b z) * colMean y (ix2 b z)) cZero + cEps) = _
  rw [colMean_apply, colMean_apply]
  rfl

theorem normed_apply (y : FVec Ideal S32x512 .f32) (b : Fin 32) (c : Fin 512) :
    normed y (ix2 b c) = (y (ix2 b c) - centre (fun c' => y (ix2 b c'))) * invDev (fun c' => y (ix2 b c')) := by
  show (y (ix2 b c) - broadcastTo S32x512 (colMean y) broadcasts_S32x1_S32x512 (ix2 b c))
      * broadcastTo S32x512 (recipDev y) broadcasts_S32x1_S32x512 (ix2 b c) = _
  rw [bcast_col_apply, bcast_col_apply, colMean_apply, recipDev_apply]
  rfl

theorem gateVec_apply (y : FVec Ideal S32x512 .f32) (b : Fin 32) (c : Fin 512) :
    gateVec y (ix2 b c) = gate (fun c' => y (ix2 b c')) c := by
  show Ideal.exp (cNeg1 * normed y (ix2 b c) * normed y (ix2 b c)) = _
  rw [normed_apply]
  rfl

/-- THE PAYLOAD AT AN ELEMENT: value (b, c, k) of the block times the gate of channel `c` computed from sample `b`'s
    channel means. -/
theorem pay_apply (x0 : Vec Ideal S32x512x49 .f32) (b : Fin 32) (c : Fin 512) (k : Fin 49) :
    k0_pay1 (F := Ideal) x0 (ix3 b c k) = x0 (ix3 b c k) * gate (chanMean fun c' k' => x0 (ix3 b c' k')) c := by
  rw [pay_eq]
  show shapeCast S32x512x49 x0 shapeCasts_S32x512x49_S32x512x49 (ix3 b c k)
      * broadcastTo S32x512x49 (shapeCast S32x512x1 (gateVec (means x0)) shapeCasts_S32x512_S32x512x1)
          broadcasts_S32x512x1_S32x512x49 (ix3 b c k) = _
  rw [shapeCast_self, bcast_col3_apply, cast_col3_apply, gateVec_apply]
  exact congrArg (fun y => x0 (ix3 b c k) * gate y c) (funext fun c' => means_apply x0 b c')

end Cert.KernelIdeal.Body

end
-- ==== Proof.Blocks.lean ====
/-
  From blocks to the array, and through the reshapes: what the kernel's program leaves in its result.

  The grid has 64 points; point `t` stages samples 32t … 32t + 31 of the flattened [2048, 512, 49] argument (all 512
  channels, all 49 positions), and writes back the same rectangle of the output. A sample's gate depends only on that
  sample's values, and a block holds whole samples, so what point `t` writes back is block `t` of ONE function of the
  flattened argument — `ChannelGate.gated3`. The 64 blocks tile the array (sample `n` is in block n / 32), so the output
  array ends holding `gated3` of the flattened argument. The program flattens the argument before the region and
  unflattens the output after it; by `ChannelGate.gated4_eq_reshape` its result is `gated4` of the argument.
-/
import proofs.«104567_j25056839205377_2_alg».proof.Proof.Gen.KernelIdeal.Frame
import proofs.«104567_j25056839205377_2_alg».proof.Proof.Body
import Idealize.ShloMosaic.Lib.Pipeline.Value
import Idealize.ShloMosaic.Lib.StableHlo.Run

noncomputable section

open scoped BigOperators

namespace Cert.KernelIdeal.Blocks

open Cert.KernelIdeal Cert.KernelIdeal.Gen Cert.ChannelGate
open Idealize.ShloMosaic Idealize.ShloMosaic.TcCoe Idealize.SL.Sem
open Idealize.ShloMosaic.ValueIdx Idealize.ShloMosaic.Keepdims
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- Both windows' block index at point `t` is (t, 0, 0): decided over the 64 points. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The region finds the flattened argument in the input window's array. -/
theorem V_main_v0 (c : Dev nD) : (V m c main_v0 : S2048x512x49.Idx → EReal)
    = shapeCast S2048x512x49 (m ((c : Thread nD τ).loc main_arg0)) shapeCasts_S2048x512x7x7_S2048x512x49 := by
  show StableHlo.after hostOps0 (fun b => m (c, b)) (Proc.devRef .tc main_v0) = _
  after_results
  rfl

/-- The input window's block at point `t`: sample `b` of the block is sample 32t + b of the array the region finds. -/
theorem iblk_apply (c : Dev nD) (t : Fin cfg0.N) (b : Fin 32) (ch : Fin 512) (k : Fin 49) (n : Fin 2048)
    (hn : n.val = 32 * t.val + b.val) :
    (iblk m c 0 t : Vec Ideal S32x512x49 .f32) (ix3 b ch k) = (V m c main_v0 : S2048x512x49.Idx → EReal) (ix3 n ch k) := by
  obtain ⟨e0, e1, e2, -, -, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 32 + 1 * b.val = n.val; rw [e0, hn]; omega
  | ⟨1, _⟩ => show win0_0.index t (1 : Fin 3) * 512 + 1 * ch.val = ch.val; rw [e1]; omega
  | ⟨2, _⟩ => show win0_0.index t (2 : Fin 3) * 49 + 1 * k.val = k.val; rw [e2]; omega

/-- A block of whole samples: if block sample `b` is array sample 32T + b, the body's payload at a block element is the
    formula on the array at the element's place. -/
theorem pay_block (x0 : Vec Ideal S32x512x49 .f32) (A : S2048x512x49.Idx → EReal) (T : Nat)
    (hx : ∀ (b : Fin 32) (ch : Fin 512) (k : Fin 49) (n : Fin 2048), n.val = 32 * T + b.val → x0 (ix3 b ch k) = A (ix3 n ch k))
    (y : S32x512x49.Idx) (i : S2048x512x49.Idx) (h0 : (i 0).val = 32 * T + (y 0).val) (h1 : (i 1).val = (y 1).val)
    (h2 : (i 2).val = (y 2).val) : k0_pay1 (F := Ideal) x0 y = gated3 A i := by
  obtain ⟨b, ch, k, rfl⟩ : ∃ (b : Fin 32) (ch : Fin 512) (k : Fin 49), y = ix3 b ch k := ⟨y 0, y 1, y 2, eq_ix3 y⟩
  obtain ⟨n, ch', k', rfl⟩ : ∃ (n : Fin 2048) (ch' : Fin 512) (k' : Fin 49), i = ix3 n ch' k' := ⟨i 0, i 1, i 2, eq_ix3 i⟩
  obtain rfl : ch' = ch := Fin.ext h1
  obtain rfl : k' = k := Fin.ext h2
  have hn : n.val = 32 * T + b.val := h0
  rw [Body.pay_apply, hx b ch' k' n hn]
  show A (ix3 n ch' k') * gate (chanMean fun c' k'' => x0 (ix3 b c' k'')) ch'
    = A (ix3 n ch' k') * gate (chanMean fun c' k'' => A (ix3 n c' k'')) ch'
  exact congrArg (fun r => A (ix3 n ch' k') * gate (chanMean r) ch')
    (funext fun c' => funext fun k'' => hx b c' k'' n hn)

/-- WHAT POINT `t` WRITES BACK is block `t` of the formula on the array the region finds. -/
theorem flushed_eq (c : Dev nD) (t : Fin cfg0.N) :
    (dats m 0 c).flushed 1 t = ((cfg0.win 1).blk t).view.read (Elt Ideal) (gated3 (V m c main_v0)) := by
  show (cfg0.win 1).cut (grid0.coords t) ((dats m 0 c).after 1 t) = _
  rw [after0_1]
  unfold out0_1
  rw [View.canon_unit_zero hz]
  simp only [View.ld_unit_zero (S := S32x512x49) hz]
  obtain ⟨-, -, -, e0, e1, e2⟩ := idx_facts t
  funext j
  show k0_pay1 (F := Ideal) (iblk m c 0 t) j = gated3 (V m c main_v0) (((cfg0.win 1).blk t).view.emb j)
  refine pay_block (iblk m c 0 t) (V m c main_v0) t.val (fun b ch k n hn => iblk_apply m c t b ch k n hn) j _ ?_ ?_ ?_
  · show win0_1.index t (0 : Fin 3) * 32 + 1 * (j 0).val = 32 * t.val + (j 0).val; rw [e0]; omega
  · show win0_1.index t (1 : Fin 3) * 512 + 1 * (j 1).val = (j 1).val; rw [e1]; omega
  · show win0_1.index t (2 : Fin 3) * 49 + 1 * (j 2).val = (j 2).val; rw [e2]; omega

/-- An index of the output array is in point `t`'s block iff each coordinate is in the block's range on its axis. -/
theorem mem_blk (t : Fin cfg0.N) (i : S2048x512x49.Idx) :
    i ∈ ((cfg0.win 1).blk t).view.set ↔ ∀ a : Fin 3, win0_1.index t a * S32x512x49.size a ≤ (i a).val
      ∧ (i a).val < win0_1.index t a * S32x512x49.size a + S32x512x49.size a := by
  show i ∈ ((View.whole main_v1).slice (win0_1.rect t)).set ↔ _
  rw [View.set_slice_whole, Rect.mem_set_unit]
  exact Iff.rfl

/-- The 64 blocks tile the array: sample `n` is in the block of point n / 32. -/
theorem cover (i : S2048x512x49.Idx) :
    ∃ t : Fin cfg0.N, (cfg0.win 1).flush t = true ∧ i ∈ ((cfg0.win 1).blk t).view.set := by
  have hi0 : (i 0).val < 2048 := (i 0).isLt
  have hi1 : (i 1).val < 512 := (i 1).isLt
  have hi2 : (i 2).val < 49 := (i 2).isLt
  have hN : cfg0.N = 64 := N_0
  obtain ⟨t, ht⟩ : ∃ t : Fin cfg0.N, t.val = (i 0).val / 32 := ⟨⟨(i 0).val / 32, by rw [hN]; omega⟩, rfl⟩
  obtain ⟨-, -, -, e0, e1, e2⟩ := idx_facts t
  refine ⟨t, flush0_1 t, ?_⟩
  rw [mem_blk]
  intro a
  match a with
  | ⟨0, _⟩ =>
    show win0_1.index t (0 : Fin 3) * 32 ≤ (i 0).val ∧ (i 0).val < win0_1.index t (0 : Fin 3) * 32 + 32
    rw [e0, ht]; omega
  | ⟨1, _⟩ =>
    show win0_1.index t (1 : Fin 3) * 512 ≤ (i 1).val ∧ (i 1).val < win0_1.index t (1 : Fin 3) * 512 + 512
    rw [e1]; omega
  | ⟨2, _⟩ =>
    show win0_1.index t (2 : Fin 3) * 49 ≤ (i 2).val ∧ (i 2).val < win0_1.index t (2 : Fin 3) * 49 + 49
    rw [e2]; omega

/-- THE OUTPUT ARRAY after the region: the formula on the array the region finds. -/
theorem final (c : Dev nD) : (dats m 0 c).arrAt 1 cfg0.N = gated3 (V m c main_v0) :=
  (dats m 0 c).arrAt_eq_of_cover 1 (gated3 (V m c main_v0)) (fun t _ => flushed_eq m c t) cover

/-- The program's result: the output array unflattened. -/
theorem tail_v2 (c : Dev nD) :
    Pipeline.afterTail₀ cfgs (dats m) 0 (V0 m) [hostOps1] c main_v2
      = gated4 (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = gated3 (shapeCast S2048x512x49 (m ((c : Thread nD τ).loc main_arg0)) shapeCasts_S2048x512x7x7_S2048x512x49) :=
    (Pipeline.withArrays_arr spec0 launch0.win.arr_inj c _ _ 1).trans
      ((final m c).trans (congrArg gated3 (V_main_v0 m c)))
  rw [hw]
  exact gated4_eq_reshape _ _ _

/-- THE KERNEL'S RUN, READ: every weakly fair execution terminates with the result at the formula on the argument, the
    argument unchanged. (Both buffers bypass the region: the frame run's post reads them after the lines that follow it.) -/
theorem run : θ_run defs (onTc (τ := τ) (main (F := Ideal))) ⟨m, fun _ => 0, ρ⟩ fun r => ∀ c : Dev nD,
      r.2.mem ((c : Thread nD τ).loc main_v2) = gated4 (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (tail_v2 m c),
       ((h c).2 main_arg0 (Pipeline.mem_restRefs_of main_arg0 (by decide) (by decide))).trans (W_main_arg0 m (dats m) c)⟩)
    (run_main m ρ)

end Cert.KernelIdeal.Blocks

end
-- ==== Proof.Reference.lean ====
/-
  The reference's result, read at one element, is the formula of `Gate.lean` on the [2048, 512, 7, 7] argument.

  The reference computes, on whole arrays: the channel means (a sum over the two spatial axes, divided by 49), the
  two per-sample averages over the channels, the reciprocal deviation, the normalised means, the gate, and the product
  with the argument. Stage by stage, at sample `n` (and channel `c`): each host sum is its initial value 0 plus the
  sum over the reduced coordinates, the sum over the 7 × 7 window being the sum over its 49 row-major positions; each
  broadcast reads its operand at the sample's (or the channel's) own index. So sample `n` sees only its own values,
  and what it computes is `ChannelGate.gate` of its channel means.
-/
import proofs.«104567_j25056839205377_2_alg».proof.Proof.Gen.ReferenceIdeal.Read
import proofs.«104567_j25056839205377_2_alg».proof.Proof.Gate
import proofs.«104567_j25056839205377_2_alg».proof.Proof.LibKeepdims

noncomputable section

open scoped BigOperators

namespace Cert.ReferenceIdeal.RefValue

open Cert.ReferenceIdeal Cert.ReferenceIdeal.Gen Cert.ReferenceIdeal.Read Cert.ChannelGate
open Idealize.ShloMosaic Idealize.ShloMosaic.ValueIdx Idealize.ShloMosaic.Keepdims

variable (x0 : (⟨S2048x512x7x7, .f32⟩ : BufTy).Contents (Elt Ideal))

/-- Sample `n`'s channel means, as the formula names them. -/
abbrev ys (n : Fin 2048) : Fin 512 → EReal := chanMean fun c' k' => x0 (ix4 n c' (hi7 k') (lo7 k'))

/-- The sum over the 7 × 7 window of channel `c` of sample `n`: over the 49 positions (the initial value is 0). -/
theorem v0_at (n : Fin 2048) (c : Fin 512) :
    val_main_v0 (F := Ideal) x0 (ix2 n c) = ∑ k : Fin 49, x0 (ix4 n c (hi7 k) (lo7 k)) := by
  show Ideal.hostReduceAdd reducesTo_S2048x512x7x7_S2048x512_d2_3 x0 (Ideal.ofBits .f32 0x00000000#32) (ix2 n c) = _
  rw [hostSum77_apply, Ideal.ofBits_zero_f32, zero_add]

/-- The channel means. -/
theorem v2_at (n : Fin 2048) (c : Fin 512) : val_main_v2 (F := Ideal) x0 (ix2 n c) = ys x0 n c := by
  rw [val_main_v2_apply, val_main_v1_apply]
  show Ideal.div (val_main_v0 (F := Ideal) x0 (ix2 n c)) c49 = _
  rw [v0_at]
  rfl

/-- The index of channel `k` of the sample an entry of a [2048, 1] column belongs to. -/
theorem idx3 (n : Fin 2048) (z : Fin 1) (k : Fin 512) : idx_main_v3 (idx_main_v4 (ix2 n z)) k = ix2 n k :=
  funext fun a => Fin.ext (by match a with | ⟨0, _⟩ => rfl | ⟨1, _⟩ => rfl)
theorem idx8 (n : Fin 2048) (z : Fin 1) (k : Fin 512) : idx_main_v8 (idx_main_v9 (ix2 n z)) k = ix2 n k :=
  funext fun a => Fin.ext (by match a with | ⟨0, _⟩ => rfl | ⟨1, _⟩ => rfl)

/-- The mean of the sample's channel means. -/
theorem v6_at (n : Fin 2048) (z : Fin 1) : val_main_v6 (F := Ideal) x0 (ix2 n z) = centre (ys x0 n) := by
  rw [val_main_v6_apply, val_main_v4_apply, val_main_v3_apply, val_main_v5_apply]
  show Ideal.div (Ideal.ofBits .f32 0x00000000#32
      + ∑ k : Fin 512, val_main_v2 (F := Ideal) x0 (idx_main_v3 (idx_main_v4 (ix2 n z)) k)) c512 = _
  rw [Ideal.ofBits_zero_f32, zero_add]
  exact congrArg (fun s => Ideal.div s c512) (Finset.sum_congr rfl fun k _ => by rw [idx3, v2_at])

/-- Their mean square. -/
theorem v11_at (n : Fin 2048) (z : Fin 1) : val_main_v11 (F := Ideal) x0 (ix2 n z) = meanSq (ys x0 n) := by
  rw [val_main_v11_apply, val_main_v9_apply, val_main_v8_apply, val_main_v10_apply]
  show Ideal.div (Ideal.ofBits .f32 0x00000000#32
      + ∑ k : Fin 512, val_main_v7 (F := Ideal) x0 (idx_main_v8 (idx_main_v9 (ix2 n z)) k)) c512 = _
  rw [Ideal.ofBits_zero_f32, zero_add]
  exact congrArg (fun s => Ideal.div s c512) (Finset.sum_congr rfl fun k _ => by
    rw [idx8, val_main_v7_apply, v2_at]; rfl)

/-- The reciprocal deviation. -/
theorem v18_at (n : Fin 2048) (z : Fin 1) : val_main_v18 (F := Ideal) x0 (ix2 n z) = invDev (ys x0 n) := by
  rw [val_main_v18_apply, val_main_v17_apply, val_main_v15_apply, val_main_v13_apply, val_main_v12_apply,
    val_main_v14_apply, val_main_v16_apply, v11_at, v6_at]
  rfl

/-- A [2048, 1] column broadcast along the channels reads the sample's own entry. -/
theorem idx19 (n : Fin 2048) (c : Fin 512) : idx_main_v19 (ix2 n c) = ix2 n (0 : Fin 1) :=
  funext fun a => Fin.ext (by match a with | ⟨0, _⟩ => rfl | ⟨1, _⟩ => rfl)
theorem idx21 (n : Fin 2048) (c : Fin 512) : idx_main_v21 (ix2 n c) = ix2 n (0 : Fin 1) :=
  funext fun a => Fin.ext (by match a with | ⟨0, _⟩ => rfl | ⟨1, _⟩ => rfl)

/-- The normalised channel mean. -/
theorem v22_at (n : Fin 2048) (c : Fin 512) :
    val_main_v22 (F := Ideal) x0 (ix2 n c) = (ys x0 n c - centre (ys x0 n)) * invDev (ys x0 n) := by
  rw [val_main_v22_apply, val_main_v20_apply, val_main_v19_apply, val_main_v21_apply, idx19, idx21, v2_at, v6_at, v18_at]
  rfl

/-- The gate. -/
theorem v26_at (n : Fin 2048) (c : Fin 512) : val_main_v26 (F := Ideal) x0 (ix2 n c) = gate (ys x0 n) c := by
  rw [val_main_v26_apply, val_main_v25_apply, val_main_v24_apply, val_main_v23_apply, v22_at]
  rfl

/-- The gate broadcast over the 7 × 7 window reads channel `c` of sample `n`. -/
theorem idx27 (n : Fin 2048) (c : Fin 512) (p q : Fin 7) : idx_main_v27 (idx_main_v28 (ix4 n c p q)) = ix2 n c :=
  funext fun a => Fin.ext (by match a with | ⟨0, _⟩ => rfl | ⟨1, _⟩ => rfl)

/-- THE REFERENCE'S RESULT is the formula on the argument. -/
theorem result_eq : val_main_v29 (F := Ideal) x0 = gated4 x0 := by
  funext i
  obtain ⟨n, c, p, q, rfl⟩ : ∃ (n : Fin 2048) (c : Fin 512) (p q : Fin 7), i = ix4 n c p q := ⟨i 0, i 1, i 2, i 3, eq_ix4 i⟩
  rw [val_main_v29_apply, val_main_v28_apply, val_main_v27_apply, idx27, v26_at]
  rfl

end Cert.ReferenceIdeal.RefValue

end
-- ==== Proof.lean ====
/-
  The kernel against its reference, over the extended reals.

  Both programs take x : [2048, 512, 7, 7] and return x with every channel's 7 × 7 window multiplied by a gate
  g(n, c) = exp (−z²), where z is the channel's spatial mean normalised by the mean and (clamped, ε-shifted) variance of
  the sample's 512 channel means (`Proof/Gate.lean` spells the formula). The reference computes it on whole arrays; the
  kernel flattens each window to 49 positions, walks the samples 32 at a time, and unflattens the result.

  At the ideal values the two results are one function of x, `ChannelGate.gated4`:
  * the reference, stage by stage (`Proof/Reference.lean`): its sum over the two window axes is the sum over the 49
    row-major positions, and every broadcast reads the sample's own entry;
  * the kernel (`Proof/Body.lean`, `Proof/Blocks.lean`): a block holds whole samples and a sample's gate depends only on
    that sample, so each grid point writes back its block of the formula on the flattened array; the blocks tile the
    array; and flattening commutes with the formula.
  The two sides use the same five constants and the same operations in the same order — quotient, reciprocal square root
  and exponential are the extended reals' own on both sides — so no law of arithmetic beyond re-indexing a finite sum is
  used, and the precondition (finite inputs) is never opened. The word-level kernel and its idealization are the same
  text (the ideal pass rewrote nothing), so `preserves` asks nothing; the three frames are the generated ones, the
  reference's being its generated run with the result dropped.
-/
import proofs.«104567_j25056839205377_2_alg».proof.Defs
import proofs.«104567_j25056839205377_2_alg».proof.Proof.Gen.Kernel
import proofs.«104567_j25056839205377_2_alg».proof.Proof.Gen.Kernel.Frame
import proofs.«104567_j25056839205377_2_alg».proof.Proof.Gen.KernelIdeal
import proofs.«104567_j25056839205377_2_alg».proof.Proof.Gen.KernelIdeal.Frame
import proofs.«104567_j25056839205377_2_alg».proof.Proof.Gen.ReferenceIdeal
import proofs.«104567_j25056839205377_2_alg».proof.Proof.Gen.ReferenceIdeal.Run
import proofs.«104567_j25056839205377_2_alg».proof.Proof.Gen.ReferenceIdeal.Read
import proofs.«104567_j25056839205377_2_alg».proof.Proof.Gen.Pre_finite_inputs
import proofs.«104567_j25056839205377_2_alg».proof.Proof.Blocks
import proofs.«104567_j25056839205377_2_alg».proof.Proof.Reference

noncomputable section

namespace Cert.Proof

open Idealize.ShloMosaic Idealize.ShloMosaic.TcCoe Idealize.SL.Sem

/-- The word-level kernel runs and leaves its argument as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on x both programs end with `gated4 x` in their result. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
